-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100000x128 : Shape := ⟨2, ![100000, 128]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S100000x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Spec.lean ====
/-
  The lookup as one function of the two arrays.

  The list holds 16384 words, the table 100000 rows of 128 entries. A word names a row by its value as a natural
  number, kept below 100000 (a word that is already below 100000 names that row itself). Entry (r, c) of the result is
  entry c of the row that word r of the list names.
-/
import Idealize.ShloMosaic.Lib.ValueIdx

namespace Cert.Proof.Spec

open Idealize.ShloMosaic Idealize.ShloMosaic.ValueIdx

/-- The row a word names: its value, kept below 100000. -/
def rowOf (w : BitVec 32) : Fin 100000 := ⟨min w.toNat 99999, by omega⟩

/-- A word below 100000 names the row of its own value. -/
theorem rowOf_val {w : BitVec 32} (h : w.toNat < 100000) : (rowOf w).val = w.toNat := by
  show min w.toNat 99999 = w.toNat
  omega

/-- Row r of the result is the table's row named by word r of the list. -/
def lookup {α : Type} (lst : (⟨1, ![16384]⟩ : Shape).Idx → BitVec 32) (tab : (⟨2, ![100000, 128]⟩ : Shape).Idx → α) :
    (⟨2, ![16384, 128]⟩ : Shape).Idx → α :=
  fun i => tab (ix2 (rowOf (lst (ix1 (i 0)))) (i 1))

theorem lookup_apply {α : Type} (lst : (⟨1, ![16384]⟩ : Shape).Idx → BitVec 32) (tab : (⟨2, ![100000, 128]⟩ : Shape).Idx → α)
    (r : Fin 16384) (c : Fin 128) : lookup lst tab (ix2 r c) = tab (ix2 (rowOf (lst (ix1 r))) c) := rfl

end Cert.Proof.Spec
-- ==== Proof.LibScSplit.lean ====
/-
  Cutting a points-to among the tiles of two SparseCores, and joining it again.

  Three ways an array held whole is cut, each an equation between the whole and the parts side by side:
  along the share (the share halved n times has 2 ^ n leaves; the full share halved five times gives one leaf per
  tile, numbered 16 * core + subcore); along a finite family of pairwise disjoint sets of elements that cover the array;
  and, for a rectangle's n equal parts along one axis, along any numbering of the parts by a finite type. Joining
  parts held at different contents gives the whole at some contents.
-/
import Idealize.ShloMosaic.Lib.SparseCore.Launch
import Idealize.ShloMosaic.Lib.Tactic

noncomputable section

namespace Cert.Lib.ScSplit

open Idealize.ShloMosaic
open Idealize.SL Idealize.SL.RA Idealize.SL.BI
open scoped Idealize.SL.BI
open Idealize.SL.BI.BIBase Idealize.SL.BI.Laws Idealize.SL.ProofMode Idealize.SL.Sem

/-! ## Sums over places -/

section BigSep

universe u
variable {M : Type u} [URA M]

/-- A sum over the numbers below 32 is a sum over core and subcore, number 16 * core + subcore. -/
theorem bigSep_range_places (Φ : ℕ → sProp M) :
    bigSep (Finset.range 32) Φ
      = bigSep Finset.univ fun c : Fin 2 => bigSep Finset.univ fun s : Fin 16 => Φ (16 * c.val + s.val) := by
  rw [← bigSep_univ_prod (fun p : Fin 2 × Fin 16 => Φ (16 * p.1.val + p.2.val))]
  have hinj : Function.Injective fun p : Fin 2 × Fin 16 => 16 * p.1.val + p.2.val := by
    rintro ⟨c, s⟩ ⟨c', s'⟩ h
    have h' : 16 * c.val + s.val = 16 * c'.val + s'.val := h
    have hc : c = c' := Fin.ext (by omega)
    have hs : s = s' := Fin.ext (by omega)
    rw [hc, hs]
  have hr : Finset.range 32 = (Finset.univ : Finset (Fin 2 × Fin 16)).map ⟨_, hinj⟩ := by
    ext i
    simp only [Finset.mem_range, Finset.mem_map, Finset.mem_univ, true_and, Function.Embedding.coeFn_mk, Prod.exists]
    constructor
    · intro hi
      exact ⟨⟨i / 16, by omega⟩, ⟨i % 16, by omega⟩, by simp only []; omega⟩
    · rintro ⟨c, s, rfl⟩
      omega
  rw [hr, bigSep_map]
  rfl

/-- A sum over two indices of a product is the product of the sums. -/
theorem bigSep2_sep {α β : Type} [Fintype α] [Fintype β] (Φ Ψ : α → β → sProp M) :
    (bigSep Finset.univ fun a => bigSep Finset.univ fun b => iprop(Φ a b ∗ Ψ a b))
      = iprop((bigSep Finset.univ fun a => bigSep Finset.univ fun b => Φ a b)
          ∗ bigSep Finset.univ fun a => bigSep Finset.univ fun b => Ψ a b) :=
  (bigSep_congr fun a _ => bigSep_sep' Finset.univ (Φ a) (Ψ a)).trans (bigSep_sep' Finset.univ _ _)

/-- A sum over ten indices, written out. -/
theorem bigSep_univ_ten (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

end BigSep

/-! ## The share halved n times -/

/-- Leaf i of the share q halved n times: the lower half of the numbers lies in the left half of q. -/
def leaf : ℕ → PosShare TreeShare → ℕ → PosShare TreeShare
  | 0, q, _ => q
  | n + 1, q, i => if i < 2 ^ n then leaf n q.left i else leaf n q.right (i - 2 ^ n)

/-- The share of the tile on core c, subcore s: leaf 16 * c + s of the full share halved five times. -/
def sh (c s : ℕ) : PosShare TreeShare := leaf 5 fullShare (16 * c + s)

section PointsTo

variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

variable {ℓ : Loc nD τ sig}

/-- A points-to at a share is its 2 ^ n leaves' side by side. -/
theorem pointsTo_leaves (I : Finset (Idx ℓ)) (f : Buf Val ℓ) :
    ∀ (n : ℕ) (q : PosShare TreeShare),
      (ℓ ↦[I]{q} f : sProp 𝕄) = bigSep (Finset.range (2 ^ n)) fun i => ℓ ↦[I]{leaf n q i} f
  | 0, q => by
    rw [show Finset.range (2 ^ 0) = {0} from rfl, bigSep_singleton]
    rfl
  | n + 1, q => by
    have hq : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hr : Finset.range (2 ^ (n + 1)) = Finset.range (2 ^ n) ∪ (Finset.range (2 ^ n)).map (addLeftEmbedding (2 ^ n)) := by
      rw [← Finset.range_add_eq_union, pow_succ, Nat.mul_two]
    have hd : Disjoint (Finset.range (2 ^ n)) ((Finset.range (2 ^ n)).map (addLeftEmbedding (2 ^ n))) := by
      rw [Finset.disjoint_left]
      intro i hi hi'
      obtain ⟨j, -, rfl⟩ := Finset.mem_map.mp hi'
      have hlt := Finset.mem_range.mp hi
      have e : (addLeftEmbedding (2 ^ n)) j = 2 ^ n + j := rfl
      omega
    rw [hq, pointsTo_leaves I f n q.left, pointsTo_leaves I f n q.right, hr, bigSep_union hd, bigSep_map]
    congr 1 <;> refine bigSep_congr fun i hi => ?_
    · rw [leaf, if_pos (Finset.mem_range.mp hi)]
    · have e : (addLeftEmbedding (2 ^ n)) i = 2 ^ n + i := rfl
      rw [e, leaf, if_neg (by omega), Nat.add_sub_cancel_left]

/-- The full share is the thirty-two tiles' shares side by side. -/
theorem pointsTo_sh (I : Finset (Idx ℓ)) (f : Buf Val ℓ) :
    (ℓ ↦[I]{fullShare} f : sProp 𝕄)
      = bigSep Finset.univ fun c : Fin 2 => bigSep Finset.univ fun s : Fin 16 => ℓ ↦[I]{sh c.val s.val} f :=
  (pointsTo_leaves I f 5 fullShare).trans (bigSep_range_places fun i => (ℓ ↦[I]{leaf 5 fullShare i} f : sProp 𝕄))

/-- A points-to on the whole array is the points-tos on a family of pairwise disjoint sets that cover it. -/
theorem pointsTo_cut {T : Type} [Fintype T] (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f : Buf Val ℓ) :
    (ℓ ↦[Finset.univ]{q} f : sProp 𝕄) = bigSep Finset.univ fun t => ℓ ↦[K t]{q} f := by
  rw [← pointsTo_biUnion Finset.univ K hd, hc]

/-- Points-tos on such a family, each at some contents, join to one on the whole array at some contents. -/
theorem pointsTo_glue {T : Type} [Fintype T] [DecidableEq T] (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f₀ : Buf Val ℓ) :
    (bigSep Finset.univ fun t => iprop(∃ f, ℓ ↦[K t]{q} f)) ⊢ (iprop(∃ f, ℓ ↦[Finset.univ]{q} f) : sProp 𝕄) := by
  have : Nonempty (Buf Val ℓ) := ⟨f₀⟩
  refine (bigSep_exists_pi Finset.univ (fun t (f : Buf Val ℓ) => (ℓ ↦[K t]{q} f : sProp 𝕄))).trans ?_
  iintro ⟨%fs, H⟩
  ihave H' := (pointsTo_biUnion_join (ℓ := ℓ) (q := q) (Val := Val) Finset.univ K fs f₀ hd) $$ H
  icases H' with ⟨%g, -, Hg⟩
  rw [hc]
  iexists g; iexact Hg

end PointsTo

/-! ## A rectangle's parts along an axis, numbered by a finite type -/

section Parts

variable {s : Shape} {a₀ : Fin s.rank} {n : ℕ} (hn : n ∣ s.size a₀) {T : Type} [Fintype T] (num : T → Fin n)

/-- Two unit-stride rectangles of equal offsets and sizes are one. -/
theorem unit_congr {off size off' size' : Fin s.rank → ℕ} {inb : ∀ a, off a + size a ≤ s.size a}
    {inb' : ∀ a, off' a + size' a ≤ s.size a} (ho : off = off') (hs : size = size') :
    Rect.unit off size inb = Rect.unit off' size' inb' := by
  subst ho; subst hs; rfl

/-- Parts of different numbers are disjoint. -/
theorem parts_disjoint (hinj : Function.Injective num) :
    ∀ t ∈ (Finset.univ : Finset T), ∀ t' ∈ (Finset.univ : Finset T), t ≠ t' →
      Disjoint (Rect.part hn (num t)).set (Rect.part hn (num t')).set :=
  fun _ _ _ _ h => Rect.part_disjoint hn fun e => h (hinj e)

/-- Every element lies in a part. -/
theorem parts_cover (hsurj : Function.Surjective num) :
    (Finset.univ : Finset T).biUnion (fun t => (Rect.part hn (num t)).set) = Finset.univ := by
  ext i
  simp only [Finset.mem_biUnion, Finset.mem_univ, true_and, iff_true]
  obtain ⟨j, hj⟩ := Rect.exists_mem_part hn i
  obtain ⟨t, rfl⟩ := hsurj j
  exact ⟨t, hj⟩

end Parts

end Cert.Lib.ScSplit

end
-- ==== Proof.KBSetup.lean ====
/-
  The gather kernel as the SparseCore launch sees it: the program's names, the ghost state, what each handshake
  carries, and the geometry of one tile's share of the work.

  Thirty-two tiles (two cores of sixteen) each take 512 consecutive words of the list, rows 8192 * core + 512 * tile
  onward, fetch the table rows those words name, and write them to the same 512 rows of the result. So a tile needs
  to read the list and the table (any row of it), and to own its 512 rows of the result: it is handed a thirty-second
  share of the list and of the table, whole, and part 16 * core + tile of the result cut in 32 along its rows. It
  hands back the two shares and its part of the result holding the lookup of the list in the table.
-/
import proofs.«212472_g42047729828085_cont_8to1_b_194_8_alg».proof.Kernel
import proofs.«212472_g42047729828085_cont_8to1_b_194_8_alg».proof.Proof.Gen.Kernel
import proofs.«212472_g42047729828085_cont_8to1_b_194_8_alg».proof.Proof.Gen.Kernel.Skeleton
import proofs.«212472_g42047729828085_cont_8to1_b_194_8_alg».proof.Proof.Spec
import proofs.«212472_g42047729828085_cont_8to1_b_194_8_alg».proof.Proof.LibScSplit
import Idealize.ShloMosaic.Lib.SparseCore.Launch
import Idealize.ShloMosaic.Lib.SparseCore.Stream
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Lib.ScSplit (sh)
open Cert.Proof.Spec (lookup rowOf)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the result -/

variable (m : (ℓ : Loc nD τ sig) → Buf (Elt F) ℓ) (ρ : Dev nD → PrngReg)

/-- The list, the table and the result, as locations of device d. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- What the result holds at the end: the lookup of the launch list in the launch table. -/
def G (d : Dev nD) : Buf (Elt F) (oLoc d) := lookup (m (iLoc d)) (m (tLoc d))

/-- What the proof asks of the launch memory: every word of the list is below the number of table rows. -/
def PreOK : Prop := ∀ (d : Dev nD) (r : S16384.Idx), (m (iLoc d) r).toNat < 100000

/-! ## The result cut in 32 along its rows -/

theorem hdiv : 32 ∣ S16384x128.size 0 := ⟨512, rfl⟩
/-- Part t: rows 512 * t to 512 * t + 511. -/
abbrev oPart (t : Fin 32) : Finset S16384x128.Idx := (Rect.part (s := S16384x128) (a₀ := 0) hdiv t).set
/-- The number of the tile on core c, subcore s. -/
def tileNo (c : Fin 2) (s : Fin 16) : Fin 32 := ⟨16 * c.val + s.val, by omega⟩

theorem tileNo_injective : Function.Injective fun p : Fin 2 × Fin 16 => tileNo p.1 p.2 := by
  rintro ⟨c, s⟩ ⟨c', s'⟩ h
  have h' : 16 * c.val + s.val = 16 * c'.val + s'.val := congrArg Fin.val h
  have hc : c = c' := Fin.ext (by omega)
  have hs : s = s' := Fin.ext (by omega)
  rw [hc, hs]

theorem tileNo_surjective : Function.Surjective fun p : Fin 2 × Fin 16 => tileNo p.1 p.2 := by
  intro t
  exact ⟨(⟨t.val / 16, by omega⟩, ⟨t.val % 16, by omega⟩), Fin.ext (by show 16 * (t.val / 16) + t.val % 16 = t.val; omega)⟩

/-! ## What the handshakes carry -/

abbrev iSh (d : Dev nD) (c s : ℕ) : sProp 𝕄 := iLoc d ↦{sh c s} m (iLoc d)
abbrev tSh (d : Dev nD) (c s : ℕ) : sProp 𝕄 := tLoc d ↦{sh c s} m (tLoc d)
abbrev oPt (d : Dev nD) (t : Fin 32) (f : Buf (Elt F) (oLoc d)) : sProp 𝕄 := oLoc d ↦[oPart t]{fullShare} f

/-- A tile's task takes its shares of the list and the table and its part of the result, -/
def goP (d : Dev nD) (c : Fin 2) (s : Fin 16) : sProp 𝕄 :=
  iprop(iSh m d c.val s.val ∗ tSh m d c.val s.val ∗ oPt d (tileNo c s) (m (oLoc d)))
/-- and brings them back, the part of the result holding the lookup. -/
def tdP (d : Dev nD) (c : Fin 2) (s : Fin 16) : sProp 𝕄 :=
  iprop(iSh m d c.val s.val ∗ tSh m d c.val s.val ∗ oPt d (tileNo c s) (G m d))

instance goP_storable (d : Dev nD) (c : Fin 2) (s : Fin 16) : BI.Storable (upEmb : UEmb _ 𝕄) (goP m d c s) := by
  unfold goP; infer_instance
instance tdP_storable (d : Dev nD) (c : Fin 2) (s : Fin 16) : BI.Storable (upEmb : UEmb _ 𝕄) (tdP m d c s) := by
  unfold tdP; infer_instance

/-- A core is handed its sixteen tiles' tasks' worth, and hands back their results. -/
def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-! ## One tile -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The tile's 512 rows of the result, as the kernel slices them. -/
abbrev oRect (L : grid0.Coords) : Rect S16384x128 := Rect.unit (s := S16384x128) (k0_off2 L) S512x128.size (k0_off2_inb L)

/-- They are part 16 * core + tile of the result cut in 32. -/
theorem oRect_eq : oRect L = Rect.part (s := S16384x128) (a₀ := 0) hdiv (tileNo (cL L) (jL L)) := by
  show Rect.unit _ _ _ = Rect.unit _ _ _
  refine Cert.Lib.ScSplit.unit_congr ?_ ?_
  · rw [k0_off2_eq]
    funext a
    match a with
    | 0 => simp [Shape.partIx, Shape.partSize, tileNo]; omega
    | 1 => simp [Shape.partIx, Shape.partSize]
  · funext a
    match a with
    | 0 => simp [Shape.partSize]
    | 1 => simp [Shape.partSize]

end Tile

end Cert.Proof.KB

end
-- ==== Proof.LibGatherRows.lean ====
/-
  A gather of table rows by a list of row numbers, read at an index. The table has N rows of C entries; the list
  has R row numbers, each below N; the result has R rows of C entries. Entry (a, c) of the result is the table's
  entry c of the row whose number is the list's entry a.
-/
import Idealize.ShloMosaic.Lib.SparseCore.Stream
import Idealize.ShloMosaic.Lib.ValueIdx

noncomputable section

namespace Cert.Lib.GatherRows

open Idealize.ShloMosaic Idealize.ShloMosaic.ValueIdx

variable {F : FTy → Type}

/-- Entry a of a list read through its row-major numbering. -/
theorem rowMajor_symm_ix1 {R : ℕ} (hn : (⟨1, ![R]⟩ : Shape).numel = R) (a : Fin R) :
    (⟨1, ![R]⟩ : Shape).rowMajor.symm (a.cast hn.symm) = ix1 a := by
  refine (Equiv.symm_apply_eq _).2 (Fin.ext ?_)
  rw [Shape.rowMajor_val_one]
  rfl

/-- The gather's result at (a, c): the table at the row the list names for a, entry c. -/
theorem gatherRows_apply {N C R : ℕ} {e : EltTy} (hg : (⟨2, ![N, C]⟩ : Shape).Gathers 0 ⟨2, ![R, C]⟩)
    (T : (⟨2, ![N, C]⟩ : Shape).Idx → Elt F e) (lst : (⟨1, ![R]⟩ : Shape).Idx → Elt F .i32)
    (hn : (⟨1, ![R]⟩ : Shape).numel = R) (h : ∀ x, (lst x).toNat < N) (a : Fin R) (c : Fin C) :
    SparseCore.gatherPayload hg T (SparseCore.rows lst hn h) (ix2 a c)
      = T (ix2 (⟨(lst (ix1 a)).toNat, h _⟩ : Fin N) c) := by
  unfold SparseCore.gatherPayload
  refine congrArg T (funext fun b => Fin.ext ?_)
  match b with
  | ⟨0, _⟩ =>
    have h1 := Shape.Gathers.idx_axis hg (SparseCore.rows lst hn h) (ix2 a c)
    show (hg.idx (SparseCore.rows lst hn h) (ix2 a c) hg.axis).val = (lst (ix1 a)).toNat
    rw [h1]
    show (lst ((⟨1, ![R]⟩ : Shape).rowMajor.symm (a.cast hn.symm))).toNat = _
    rw [rowMajor_symm_ix1 hn a]
  | ⟨1, _⟩ =>
    exact Shape.Gathers.idx_of_ne hg (SparseCore.rows lst hn h) (ix2 a c) ⟨1, Nat.one_lt_two⟩ Nat.one_ne_zero

end Cert.Lib.GatherRows

end
-- ==== Proof.LibMemrefEq.lean ====
/-
  Reading and writing through equal memrefs.

  A view's contents are typed by the view's buffer type, so an equation between two memrefs cannot be rewritten under a
  read or a list of writes of fixed contents: the contents' type would change with the memref. These lemmas carry the
  contents along instead: for equal memrefs and contents that are the same up to that change of type, the reads agree,
  and the written contents agree at indices that are the same up to it.
-/
import Idealize.ShloMosaic.Lib.Writes
import Idealize.ShloMosaic.Lib.Exec.Geometry

namespace Cert.Proof.LibMemrefEq

open Idealize.ShloMosaic

variable {sig : RefSig} {κ : Kind} {sp : Space} {s : Shape} {e : EltTy} {Val : EltTy → Type}

/-- Equal memrefs read the same contents alike. -/
theorem read_congr {m m' : Memref sig κ sp s e} (h : m = m') (f : m.view.ty.Contents Val) (f' : m'.view.ty.Contents Val)
    (hf : HEq f f') : m.view.read Val f = m'.view.read Val f' := by
  subst h; cases hf; rfl

/-- Equal memrefs, after the same writes over the same contents, hold the same element at the same index. -/
theorem writes_apply_congr {m m' : Memref sig κ sp s e} (h : m = m') (f : m.view.ty.Contents Val)
    (f' : m'.view.ty.Contents Val) (hf : HEq f f') (L : List (View.Piece Val s e)) (i : m.view.ty.Idx)
    (i' : m'.view.ty.Idx) (hi : HEq i i') : HEq (m.view.writes Val f L i) (m'.view.writes Val f' L i') := by
  subst h; cases hf; cases hi; exact HEq.rfl

/-- A single piece covering the whole view is the unmasked write of its payload. -/
theorem writes_whole_apply {m : Memref sig κ sp s e} (f : m.view.ty.Contents Val) (w : s.Idx → Val e) (i : m.view.ty.Idx) :
    m.view.writes Val f [⟨Rect.whole s, w⟩] i = m.view.write Val f w Finset.univ i :=
  (congrFun (View.write_univ_eq_writes_whole m.view f [] w) i).symm

end Cert.Proof.LibMemrefEq
-- ==== Proof.KBBody.lean ====
/-
  One tile's task.

  The tile copies its 512 words of the list into its first scratch and waits; issues the gather of the table rows
  those words name into its second scratch and waits; copies that scratch to its 512 rows of the result and waits.
  One transfer is outstanding at a time, each on a semaphore of its own, so nothing is read or written while in
  flight. The gather needs every word of the scratch list to name a table row: the scratch holds the tile's words of
  the launch list, each below 100000.

  What the tile's rows of the result hold at the end: row j is the table row named by scratch word j, which is
  word 512 * (16 * core + tile) + j of the launch list, that is the lookup's row at that position.
-/
import proofs.«212472_g42047729828085_cont_8to1_b_194_8_alg».proof.Proof.KBSetup
import proofs.«212472_g42047729828085_cont_8to1_b_194_8_alg».proof.Proof.LibGatherRows
import proofs.«212472_g42047729828085_cont_8to1_b_194_8_alg».proof.Proof.LibMemrefEq

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Lib.ScSplit (sh)
open Cert.Proof.Spec (lookup rowOf)

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "tW" => (Memref.whole Cert.Kernel.main_arg1_scv : Memref Cert.Kernel.sig Kind.scVector Space.hbm Cert.Kernel.S100000x128 EltTy.f32)
local notation "iW" => (Memref.whole Cert.Kernel.main_arg0_scv : Memref Cert.Kernel.sig Kind.scVector Space.hbm Cert.Kernel.S16384 EltTy.i32)
local notation "oW" => (Memref.whole Cert.Kernel.main_v0_scv : Memref Cert.Kernel.sig Kind.scVector Space.hbm Cert.Kernel.S16384x128 EltTy.f32)
local notation "s0W" => (Memref.whole Cert.Kernel.cc0_scratch0 : Memref Cert.Kernel.sig Kind.scVector Space.vmem Cert.Kernel.S512 EltTy.i32)
local notation "s1W" => (Memref.whole Cert.Kernel.cc0_scratch1 : Memref Cert.Kernel.sig Kind.scVector Space.vmem Cert.Kernel.S512x128 EltTy.f32)

variable [FloatOps F]

section Tile

variable (d : Dev nD) (L : grid0.Coords)

/-- The tile's thread. -/
abbrev thr (d : Dev nD) (L : grid0.Coords) : Thread nD τ := V d (cV L) (jV L)

/-- The tile's three semaphores: the list copy's, the gather's, the copy-out's. -/
abbrev cellA (d : Dev nD) (L : grid0.Coords) : GSem nD τ sig := (thr d L, .dma cc0_scoped0.sem)
abbrev cellG (d : Dev nD) (L : grid0.Coords) : GSem nD τ sig := (thr d L, .dma cc0_scratch2.sem)
abbrev cellB (d : Dev nD) (L : grid0.Coords) : GSem nD τ sig := (thr d L, .dma cc0_scoped1.sem)

omit [FloatOps F] in
theorem ownSems0_V :
    (ownSems0 (thr d L) : sProp 𝕄)
      = iprop(semVal (cellA d L) 0 ∗ semVal (cellG d L) 0 ∗ semVal (cellB d L) 0
          ∗ bigSep ((((ownCells (thr d L)).erase (cellA d L)).erase (cellG d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellG]; decide, (mem_ownCells (g := cellG d L)).mpr ⟨rfl, by
      show (SemLoc.dma cc0_scratch2.sem : SemLoc sig).isScoped .scVector = true; decide⟩⟩),
    SparseCore.bigSep_erase' (Finset.mem_erase.mpr ⟨by simp [cellG, cellB]; decide, Finset.mem_erase.mpr ⟨by simp [cellA, cellB]; decide,
      (mem_ownCells (g := cellB d L)).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile's rows of the result as the kernel's memref for them. -/
abbrev oSl (L : grid0.Coords) : Memref sig .scVector .hbm S512x128 .f32 := (oW).slice (oRect L) (fun _ => rfl)
/-- The tile's words of the list as the kernel's memref for them. -/
abbrev iRect (L : grid0.Coords) : Rect S16384 := Rect.unit (s := S16384) (k0_off1 L) S512.size (k0_off1_inb L)
abbrev iSl (L : grid0.Coords) : Memref sig .scVector .hbm S512 .i32 := (iW).slice (iRect L) (fun _ => rfl)

omit [FloatOps F] in
theorem set_oSl : (oSl L).view.set = oPart (tileNo (cL L) (jL L)) := by
  show ((View.whole (main_v0_scv : Ref sig .scVector)).slice (oRect L)).set = _
  rw [View.set_slice, oRect_eq]; exact Finset.map_refl

omit [FloatOps F] in
theorem pts_oSl (f : Buf (Elt F) (oLoc d)) :
    ((oSl L).view.loc (thr d L) ↦[(oSl L).view.set]{fullShare} f : sProp 𝕄) = oLoc d ↦[oPart (tileNo (cL L) (jL L))]{fullShare} f := by
  rw [set_oSl]
omit [FloatOps F] in
theorem pts_i (q : PosShare TreeShare) (f : Buf (Elt F) (iLoc d)) :
    ((iW).view.loc (thr d L) ↦{q} f : sProp 𝕄) = iLoc d ↦{q} f := by
  simp only [Memref.view_whole, View.set_whole]
omit [FloatOps F] in
theorem pts_t (q : PosShare TreeShare) (f : Buf (Elt F) (tLoc d)) :
    ((tW).view.loc (thr d L) ↦{q} f : sProp 𝕄) = tLoc d ↦{q} f := by
  simp only [Memref.view_whole, View.set_whole]
omit [FloatOps F] in
theorem pts_s0 (f : Buf (Elt F) ((thr d L).loc cc0_scratch0)) :
    ((s0W).view.loc (thr d L) ↦{fullShare} f : sProp 𝕄) = (thr d L).loc cc0_scratch0 ↦{fullShare} f := rfl
omit [FloatOps F] in
theorem pts_s1 (f : Buf (Elt F) ((thr d L).loc cc0_scratch1)) :
    ((s1W).view.loc (thr d L) ↦{fullShare} f : sProp 𝕄) = (thr d L).loc cc0_scratch1 ↦{fullShare} f := rfl

/-- After the list copy the first scratch holds the tile's words of the launch list, whatever it held before: each
    is below the number of table rows. -/
theorem list_words_lt (hpre : PreOK m) (g : Buf (Elt F) ((thr d L).loc cc0_scratch0)) (pay : S512.Idx → Elt F .i32)
    (hpay : pay = (iSl L).view.read (Elt F) (m (iLoc d))) :
    ∀ x : cc0_scratch0.ty.shape.Idx, ((s0W).view.read (Elt F) ((s0W).view.write (Elt F) g pay Finset.univ) x).toNat < 100000 := by
  intro x
  rw [View.read_write_univ, hpay, View.read_apply, cast_eq]
  exact hpre d _

/-- The table as the kernel slices it for the gather: all of it. -/
abbrev tSl : Memref sig .scVector .hbm S100000x128 .f32 :=
  (tW).slice (Rect.unit (s := S100000x128) ![0, 0] S100000x128.size inb_S100000x128_S100000x128_0_0) (fun _ => rfl)

omit [FloatOps F] in
/-- Read through that slice, the table is the table. -/
theorem tSl_read (x : S100000x128.Idx) : (tSl).view.read (Elt F) (m (tLoc d)) x = m (tLoc d) x := by
  rw [View.read_apply, cast_eq]
  refine congrArg (m (tLoc d)) (funext fun a => Fin.ext ?_)
  match a with
  | ⟨0, _⟩ => show 0 + 1 * (x 0).val = (x 0).val; omega
  | ⟨1, _⟩ => show 0 + 1 * (x 1).val = (x 1).val; omega

omit [FloatOps F] in
/-- One gathered entry: for a list that is the tile's words of the launch list, entry (a, c) of the gather is entry c
    of the table row that word a of the tile names. -/
theorem row_value (hpre : PreOK m) (lst : S512.Idx → Elt F .i32) (hl : lst = (iSl L).view.read (Elt F) (m (iLoc d)))
    (hn : S512.numel = S512x128.size gathers_S100000x128_S512x128.axis')
    (h : ∀ x, (lst x).toNat < S100000x128.size gathers_S100000x128_S512x128.axis) (a : Fin 512) (c : Fin 128) :
    SparseCore.gatherPayload gathers_S100000x128_S512x128 ((tSl).view.read (Elt F) (m (tLoc d))) (SparseCore.rows lst hn h) (ix2 a c)
      = m (tLoc d) (ix2 (rowOf (m (iLoc d) ((iSl L).view.emb (ix1 a)))) c) := by
  subst hl
  refine (Cert.Lib.GatherRows.gatherRows_apply (N := 100000) (C := 128) (R := 512) gathers_S100000x128_S512x128 _ _ hn h a c).trans ?_
  rw [tSl_read]
  refine congrArg (m (tLoc d)) (congrArg (fun r => ix2 r c) (Fin.ext ?_))
  show ((iSl L).view.read (Elt F) (m (iLoc d)) (ix1 a)).toNat = (rowOf (m (iLoc d) ((iSl L).view.emb (ix1 a)))).val
  rw [View.read_apply, cast_eq, Spec.rowOf_val (hpre d _)]

omit [FloatOps F] in
/-- The same with the list spelt as the first scratch read back after the list copy wrote it whole. -/
theorem gathered_value (hpre : PreOK m) (f0 : Buf (Elt F) ((thr d L).loc cc0_scratch0)) (pay : S512.Idx → Elt F .i32)
    (hpay : pay = (iSl L).view.read (Elt F) (m (iLoc d)))
    (hn : S512.numel = S512x128.size gathers_S100000x128_S512x128.axis')
    (h : ∀ x, ((s0W).view.read (Elt F) ((s0W).view.write (Elt F) f0 pay Finset.univ) x).toNat < S100000x128.size gathers_S100000x128_S512x128.axis)
    (a : Fin 512) (c : Fin 128) :
    SparseCore.gatherPayload gathers_S100000x128_S512x128 ((tSl).view.read (Elt F) (m (tLoc d)))
        (SparseCore.rows ((s0W).view.read (Elt F) ((s0W).view.write (Elt F) f0 pay Finset.univ)) hn h) (ix2 a c)
      = m (tLoc d) (ix2 (rowOf (m (iLoc d) ((iSl L).view.emb (ix1 a)))) c) :=
  row_value m d L hpre _ (by rw [View.read_write_univ, hpay]) hn h a c

omit [FloatOps F] in
/-- The tile's rows of the result, written whole with rows that are the lookup's, hold the lookup on those rows:
    row a of the tile is row 8192 * core + 512 * tile + a of the result, and word a of the tile is the word at that
    position of the list. -/
theorem out_part_value (w : S512x128.Idx → Elt F .f32)
    (hw : ∀ (a : Fin 512) (c : Fin 128), w (ix2 a c) = m (tLoc d) (ix2 (rowOf (m (iLoc d) ((iSl L).view.emb (ix1 a)))) c)) :
    ∀ i ∈ (oSl L).view.set, (oSl L).view.writes (Elt F) (m (oLoc d)) [⟨Rect.whole S512x128, w⟩] i = G m d i := by
  intro i hi
  obtain ⟨y, -, rfl⟩ := Finset.mem_map.mp hi
  obtain ⟨a, c, rfl⟩ : ∃ (a : Fin 512) (c : Fin 128), y = ix2 a c := ⟨y 0, y 1, eq_ix2 y⟩
  rw [Cert.Proof.LibMemrefEq.writes_whole_apply, View.write_emb_of_mem _ _ (Finset.mem_univ _), cast_eq, hw]
  show _ = m (tLoc d) (ix2 (rowOf (m (iLoc d) (ix1 (((oSl L).view.emb (ix2 a c)) 0)))) (((oSl L).view.emb (ix2 a c)) 1))
  have e0 : (iSl L).view.emb (ix1 a) = ix1 (((oSl L).view.emb (ix2 a c)) 0) := by
    funext b
    match b with
    | ⟨0, _⟩ =>
      refine Fin.ext ?_
      show k0_off1 L 0 + 1 * a.val = k0_off2 L 0 + 1 * a.val
      rw [k0_off1_eq, k0_off2_eq]; rfl
  have e1 : c = ((oSl L).view.emb (ix2 a c)) 1 := by
    refine Fin.ext ?_
    show c.val = k0_off2 L 1 + 1 * c.val
    rw [k0_off2_eq]
    show c.val = 0 + 1 * c.val
    omega
  rw [e0, ← e1]
  rfl

omit [FloatOps F] in
/-- What the copy out moves: the second scratch read back after the gather wrote it whole, which is what the gather
    wrote. -/
theorem scratch_readback (f1 : Buf (Elt F) ((thr d L).loc cc0_scratch1)) (g : S512x128.Idx → Elt F .f32) (v : Elt F .f32)
    (a : Fin 512) (c : Fin 128) (hg : g (ix2 a c) = v) :
    (s1W).view.read (Elt F) ((s1W).view.writes (Elt F) f1 [⟨Rect.whole S512x128, g⟩]) (ix2 a c) = v := by
  have e : (s1W).view.writes (Elt F) f1 [⟨Rect.whole S512x128, g⟩] = (s1W).view.write (Elt F) f1 g Finset.univ :=
    funext fun i => Cert.Proof.LibMemrefEq.writes_whole_apply (m := s1W) f1 g i
  rw [e, View.read_write_univ]
  exact hg

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goP m d (cL L) (jL L)
        ∗ scopedBufs (thr d L) ∗ scopedSems0 (thr d L) ∗ owes (thr d L) O W)
      ⊢ wp frame (wpE (defs₀ (F := F)) 𝒱₀ (thr d L) none) Set.univ
          (cc0_gather_kernel L tW (Memref.isWhole_whole _) iW (Memref.isWhole_whole _) oW (Memref.isWhole_whole _)
            s0W (Memref.isWhole_whole _) s1W (Memref.isWhole_whole _) cc0_scratch2 cc0_scoped0 cc0_scoped1)
          fun _ => iprop(tdP m d (cL L) (jL L) ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold goP
  iintro ⟨#Hlv, -, ⟨Hi, Ht, Ho⟩, ⟨⟨%f0, Hs0⟩, ⟨%f1, Hs1⟩, Hbufs⟩, ⟨HsemA, HsemG, HsemB, Hsems⟩, HO⟩
  ihave Hmw := ((K (F := F)).mayWaits_none (thr := thr d L) hO) $$ Hlv
  ihave Hi' := (Entails.of_eq (pts_i (F := F) d L _ _).symm) $$ Hi
  ihave Ht' := (Entails.of_eq (pts_t (F := F) d L _ _).symm) $$ Ht
  ihave Ho' := (Entails.of_eq (pts_oSl (F := F) d L _).symm) $$ Ho
  ihave Hs0' := (Entails.of_eq (pts_s0 (F := F) d L _).symm) $$ Hs0
  ihave Hs1' := (Entails.of_eq (pts_s1 (F := F) d L _).symm) $$ Hs1
  -- the list copy and its wait
  sl_exec
  -- every word of the scratch list names a table row, whatever the scratch held before
  have hin := fun g => list_words_lt m d L hpre g (tile_body.sl.dma0 m d L) rfl
  -- the gather and its wait, the copy out and its wait
  sl_exec
  -- what the gather wrote, and so what the copy out moved, is the lookup's rows
  have hg : ∀ (a : Fin 512) (c : Fin 128), tile_body.sl.gather0 m d L f0 hin (ix2 a c)
      = m (tLoc d) (ix2 (rowOf (m (iLoc d) ((iSl L).view.emb (ix1 a)))) c) := by
    intro a c
    unfold tile_body.sl.gather0
    exact gathered_value m d L hpre f0 (tile_body.sl.dma0 m d L) rfl rfl (fun x => hin f0 x) a c
  have hw : ∀ (a : Fin 512) (c : Fin 128), tile_body.sl.dma0_1 m d L f0 f1 hin (ix2 a c)
      = m (tLoc d) (ix2 (rowOf (m (iLoc d) ((iSl L).view.emb (ix1 a)))) c) := by
    intro a c
    unfold tile_body.sl.dma0_1
    exact scratch_readback d L f1 (tile_body.sl.gather0 m d L f0 hin)
      (m (tLoc d) (ix2 (rowOf (m (iLoc d) ((iSl L).view.emb (ix1 a)))) c)) a c (hg a c)
  sl_step
  unfold tdP
  isplitl [Hi' Ht' Ho']
  · isplitl [Hi']; · iapply (Entails.of_eq (pts_i (F := F) d L _ _)); iexact Hi'
    isplitl [Ht']; · iapply (Entails.of_eq (pts_t (F := F) d L _ _)); iexact Ht'
    iapply (Entails.of_eq ((pointsTo_congr (out_part_value m d L _ hw)).trans (pts_oSl (F := F) d L _)))
    iexact Ho'
  isplitl [Hs0' Hs1' Hbufs]
  · isplitl [Hs0']; · iexists _; iexact Hs0'
    isplitl [Hs1']; · iexists _; iexact Hs1'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Tile

end Cert.Proof.KB

end
-- ==== Proof.KBLaunch.lean ====
/-
  The launch: from one tile's task to the whole program's run.

  The TensorCore holds the list, the table and the result whole. It starts the two SparseCores, each sequencer hands
  its sixteen tiles their tasks, every tile runs its task, and the results come back the same way. The list and the
  table, read by every tile, go out as thirty-two equal shares of the whole array each; the result goes out cut in
  32 along its rows, part 16 * core + tile to that tile. Coming back, the thirty-two shares of the list and of the
  table are the arrays whole again at their launch contents, and the 32 parts of the result, each holding the lookup
  on its rows, are the result holding the lookup. So the program ends with the list and the table unchanged and the
  result equal to the lookup of the launch list in the launch table.
-/
import proofs.«212472_g42047729828085_cont_8to1_b_194_8_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Lib.ScSplit (sh)
open Cert.Proof.Spec (lookup rowOf)

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.Kernel.main_arg1_scv : Memref Cert.Kernel.sig Kind.scVector Space.hbm Cert.Kernel.S100000x128 EltTy.f32)
local notation "iW" => (Memref.whole Cert.Kernel.main_arg0_scv : Memref Cert.Kernel.sig Kind.scVector Space.hbm Cert.Kernel.S16384 EltTy.i32)
local notation "oW" => (Memref.whole Cert.Kernel.main_v0_scv : Memref Cert.Kernel.sig Kind.scVector Space.hbm Cert.Kernel.S16384x128 EltTy.f32)
local notation "s0W" => (Memref.whole Cert.Kernel.cc0_scratch0 : Memref Cert.Kernel.sig Kind.scVector Space.vmem Cert.Kernel.S512 EltTy.i32)
local notation "s1W" => (Memref.whole Cert.Kernel.cc0_scratch1 : Memref Cert.Kernel.sig Kind.scVector Space.vmem Cert.Kernel.S512x128 EltTy.f32)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tW (Memref.isWhole_whole _) iW (Memref.isWhole_whole _) oW (Memref.isWhole_whole _)
          s0W (Memref.isWhole_whole _) s1W (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's share is its sixteen tiles' tasks side by side, and their results side by side are what it hands back. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun s : Fin 16 => tdP m d (Fin.cast nCore_zero c) s))
  rw [bigSep_tasks (F := F) (fun i => goP m d (Fin.cast nCore_zero c) i), bigSep_tasks (F := F) (fun i => tdP m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The three arrays among the thirty-two tiles -/

omit [FloatOps F] in
/-- The result whole is its 32 parts, numbered by core and tile. -/
theorem oPts_parts (d : Dev nD) (f : Buf (Elt F) (oLoc d)) :
    (oLoc d ↦{fullShare} f : sProp 𝕄)
      = bigSep Finset.univ fun c : Fin 2 => bigSep Finset.univ fun s : Fin 16 => oLoc d ↦[oPart (tileNo c s)]{fullShare} f := by
  rw [Cert.Lib.ScSplit.pointsTo_cut (fun p : Fin 2 × Fin 16 => oPart (tileNo p.1 p.2))
    (Cert.Lib.ScSplit.parts_disjoint hdiv (fun p : Fin 2 × Fin 16 => tileNo p.1 p.2) tileNo_injective)
    (Cert.Lib.ScSplit.parts_cover hdiv (fun p : Fin 2 × Fin 16 => tileNo p.1 p.2) tileNo_surjective) fullShare f]
  exact bigSep_univ_prod (fun p : Fin 2 × Fin 16 => (oLoc d ↦[oPart (tileNo p.1 p.2)]{fullShare} f : sProp 𝕄))

omit [FloatOps F] in
/-- The list and the table whole at their launch contents and the result whole at f are, side by side over the
    thirty-two tiles, a share of the list, a share of the table and the tile's part of the result at f. -/
theorem deal (d : Dev nD) (f : Buf (Elt F) (oLoc d)) :
    (iprop((iLoc d ↦{fullShare} m (iLoc d)) ∗ (tLoc d ↦{fullShare} m (tLoc d)) ∗ oLoc d ↦{fullShare} f) : sProp 𝕄)
      = bigSep Finset.univ fun c : Fin 2 => bigSep Finset.univ fun s : Fin 16 =>
          iprop(iSh m d c.val s.val ∗ tSh m d c.val s.val ∗ oPt d (tileNo c s) f) := by
  rw [Cert.Lib.ScSplit.bigSep2_sep (fun (c : Fin 2) (s : Fin 16) => iSh m d c.val s.val)
      (fun (c : Fin 2) (s : Fin 16) => iprop(tSh m d c.val s.val ∗ oPt d (tileNo c s) f)),
    Cert.Lib.ScSplit.bigSep2_sep (fun (c : Fin 2) (s : Fin 16) => tSh m d c.val s.val) (fun (c : Fin 2) (s : Fin 16) => oPt d (tileNo c s) f),
    ← Cert.Lib.ScSplit.pointsTo_sh, ← Cert.Lib.ScSplit.pointsTo_sh, ← oPts_parts]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c)
      = bigSep Finset.univ fun c : Fin 2 => bigSep Finset.univ fun s : Fin 16 => goP m d c s := rfl
theorem dn0_eq (d : Dev nD) :
    (bigSep Finset.univ fun c : Fin ((K (F := F)).nCore 0) => (P m).dn 0 d c)
      = bigSep Finset.univ fun c : Fin 2 => bigSep Finset.univ fun s : Fin 16 => tdP m d c s := rfl

/-- What @main leaves: the list and the table at their launch contents, the result at the lookup. -/
abbrev FIN (d : Dev nD) : sProp 𝕄 :=
  iprop((iLoc d ↦{fullShare} m (iLoc d)) ∗ (tLoc d ↦{fullShare} m (tLoc d)) ∗ oLoc d ↦{fullShare} G m d)

/-- @main on device d's TensorCore: the one call, from the three arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ht, Ho⟩, -, -⟩, -⟩
  iapply ((K (F := F)).wp_run (D (F := F)) 𝒱 (EH := EH) (P := P m) κ d 0) $$ [Hst Hi Ht Ho]
  isplitr; · iexact Hctx
  isplitl [Hst]; · iexact Hst
  isplitl [Hi Ht Ho]
  · rw [st0_eq]
    unfold goP
    rw [← deal]
    isplitl [Hi]; · iexact Hi
    isplitl [Ht]; · iexact Ht
    iexact Ho
  iintro ⟨Hst, Hdn⟩
  ihave Hdn' := (Entails.of_eq ((dn0_eq m d).trans ((by unfold tdP; rfl : _ = _).trans (deal m d (G m d)).symm))) $$ Hdn
  icases Hdn' with ⟨Hi, Ht, Ho⟩
  imodintro
  isplitl [Hst]; · iexact Hst
  isplitl [Hi]; · iexact Hi
  isplitl [Ht]; · iexact Ht
  iexact Ho

def fq (d : Dev nD) (s' : Phys nD τ sig (Elt F)) : Prop :=
  s'.mem.mem (oLoc d) = G m d ∧ s'.mem.mem (iLoc d) = m (iLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The result at the lookup; the list and the table unchanged. -/
def QC : PUnit × MemSt nD τ sig (Elt F) → Prop :=
  fun r => ∀ c : Dev nD, r.2.mem (oLoc c) = G m c ∧ r.2.mem (iLoc c) = m (iLoc c) ∧ r.2.mem (tLoc c) = m (tLoc c)

/-- Every weakly fair execution of the device's threads terminates, nothing faulting, in a state where the result is
    the lookup of the launch list in the launch table and the list and the table are unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KISetup.lean ====
/-
  The gather kernel as the SparseCore launch sees it: the program's names, the ghost state, what each handshake
  carries, and the geometry of one tile's share of the work.

  Thirty-two tiles (two cores of sixteen) each take 512 consecutive words of the list, rows 8192 * core + 512 * tile
  onward, fetch the table rows those words name, and write them to the same 512 rows of the result. So a tile needs
  to read the list and the table (any row of it), and to own its 512 rows of the result: it is handed a thirty-second
  share of the list and of the table, whole, and part 16 * core + tile of the result cut in 32 along its rows. It
  hands back the two shares and its part of the result holding the lookup of the list in the table.
-/
import proofs.«212472_g42047729828085_cont_8to1_b_194_8_alg».proof.KernelIdeal
import proofs.«212472_g42047729828085_cont_8to1_b_194_8_alg».proof.Proof.Gen.KernelIdeal
import proofs.«212472_g42047729828085_cont_8to1_b_194_8_alg».proof.Proof.Gen.KernelIdeal.Skeleton
import proofs.«212472_g42047729828085_cont_8to1_b_194_8_alg».proof.Proof.Spec
import proofs.«212472_g42047729828085_cont_8to1_b_194_8_alg».proof.Proof.LibScSplit
import Idealize.ShloMosaic.Lib.SparseCore.Launch
import Idealize.ShloMosaic.Lib.SparseCore.Stream
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Lib.ScSplit (sh)
open Cert.Proof.Spec (lookup rowOf)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the result -/

variable (m : (ℓ : Loc nD τ sig) → Buf (Elt F) ℓ) (ρ : Dev nD → PrngReg)

/-- The list, the table and the result, as locations of device d. -/
abbrev iLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- What the result holds at the end: the lookup of the launch list in the launch table. -/
def G (d : Dev nD) : Buf (Elt F) (oLoc d) := lookup (m (iLoc d)) (m (tLoc d))

/-- What the proof asks of the launch memory: every word of the list is below the number of table rows. -/
def PreOK : Prop := ∀ (d : Dev nD) (r : S16384.Idx), (m (iLoc d) r).toNat < 100000

/-! ## The result cut in 32 along its rows -/

theorem hdiv : 32 ∣ S16384x128.size 0 := ⟨512, rfl⟩
/-- Part t: rows 512 * t to 512 * t + 511. -/
abbrev oPart (t : Fin 32) : Finset S16384x128.Idx := (Rect.part (s := S16384x128) (a₀ := 0) hdiv t).set
/-- The number of the tile on core c, subcore s. -/
def tileNo (c : Fin 2) (s : Fin 16) : Fin 32 := ⟨16 * c.val + s.val, by omega⟩

theorem tileNo_injective : Function.Injective fun p : Fin 2 × Fin 16 => tileNo p.1 p.2 := by
  rintro ⟨c, s⟩ ⟨c', s'⟩ h
  have h' : 16 * c.val + s.val = 16 * c'.val + s'.val := congrArg Fin.val h
  have hc : c = c' := Fin.ext (by omega)
  have hs : s = s' := Fin.ext (by omega)
  rw [hc, hs]

theorem tileNo_surjective : Function.Surjective fun p : Fin 2 × Fin 16 => tileNo p.1 p.2 := by
  intro t
  exact ⟨(⟨t.val / 16, by omega⟩, ⟨t.val % 16, by omega⟩), Fin.ext (by show 16 * (t.val / 16) + t.val % 16 = t.val; omega)⟩

/-! ## What the handshakes carry -/

abbrev iSh (d : Dev nD) (c s : ℕ) : sProp 𝕄 := iLoc d ↦{sh c s} m (iLoc d)
abbrev tSh (d : Dev nD) (c s : ℕ) : sProp 𝕄 := tLoc d ↦{sh c s} m (tLoc d)
abbrev oPt (d : Dev nD) (t : Fin 32) (f : Buf (Elt F) (oLoc d)) : sProp 𝕄 := oLoc d ↦[oPart t]{fullShare} f

/-- A tile's task takes its shares of the list and the table and its part of the result, -/
def goP (d : Dev nD) (c : Fin 2) (s : Fin 16) : sProp 𝕄 :=
  iprop(iSh m d c.val s.val ∗ tSh m d c.val s.val ∗ oPt d (tileNo c s) (m (oLoc d)))
/-- and brings them back, the part of the result holding the lookup. -/
def tdP (d : Dev nD) (c : Fin 2) (s : Fin 16) : sProp 𝕄 :=
  iprop(iSh m d c.val s.val ∗ tSh m d c.val s.val ∗ oPt d (tileNo c s) (G m d))

instance goP_storable (d : Dev nD) (c : Fin 2) (s : Fin 16) : BI.Storable (upEmb : UEmb _ 𝕄) (goP m d c s) := by
  unfold goP; infer_instance
instance tdP_storable (d : Dev nD) (c : Fin 2) (s : Fin 16) : BI.Storable (upEmb : UEmb _ 𝕄) (tdP m d c s) := by
  unfold tdP; infer_instance

/-- A core is handed its sixteen tiles' tasks' worth, and hands back their results. -/
def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-! ## One tile -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The tile's 512 rows of the result, as the kernel slices them. -/
abbrev oRect (L : grid0.Coords) : Rect S16384x128 := Rect.unit (s := S16384x128) (k0_off2 L) S512x128.size (k0_off2_inb L)

/-- They are part 16 * core + tile of the result cut in 32. -/
theorem oRect_eq : oRect L = Rect.part (s := S16384x128) (a₀ := 0) hdiv (tileNo (cL L) (jL L)) := by
  show Rect.unit _ _ _ = Rect.unit _ _ _
  refine Cert.Lib.ScSplit.unit_congr ?_ ?_
  · rw [k0_off2_eq]
    funext a
    match a with
    | 0 => simp [Shape.partIx, Shape.partSize, tileNo]; omega
    | 1 => simp [Shape.partIx, Shape.partSize]
  · funext a
    match a with
    | 0 => simp [Shape.partSize]
    | 1 => simp [Shape.partSize]

end Tile

end Cert.Proof.KI

end
-- ==== Proof.KIBody.lean ====
/-
  One tile's task.

  The tile copies its 512 words of the list into its first scratch and waits; issues the gather of the table rows
  those words name into its second scratch and waits; copies that scratch to its 512 rows of the result and waits.
  One transfer is outstanding at a time, each on a semaphore of its own, so nothing is read or written while in
  flight. The gather needs every word of the scratch list to name a table row: the scratch holds the tile's words of
  the launch list, each below 100000.

  What the tile's rows of the result hold at the end: row j is the table row named by scratch word j, which is
  word 512 * (16 * core + tile) + j of the launch list, that is the lookup's row at that position.
-/
import proofs.«212472_g42047729828085_cont_8to1_b_194_8_alg».proof.Proof.KISetup
import proofs.«212472_g42047729828085_cont_8to1_b_194_8_alg».proof.Proof.LibGatherRows
import proofs.«212472_g42047729828085_cont_8to1_b_194_8_alg».proof.Proof.LibMemrefEq

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Lib.ScSplit (sh)
open Cert.Proof.Spec (lookup rowOf)

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "tW" => (Memref.whole Cert.KernelIdeal.main_arg1_scv : Memref Cert.KernelIdeal.sig Kind.scVector Space.hbm Cert.KernelIdeal.S100000x128 EltTy.f32)
local notation "iW" => (Memref.whole Cert.KernelIdeal.main_arg0_scv : Memref Cert.KernelIdeal.sig Kind.scVector Space.hbm Cert.KernelIdeal.S16384 EltTy.i32)
local notation "oW" => (Memref.whole Cert.KernelIdeal.main_v0_scv : Memref Cert.KernelIdeal.sig Kind.scVector Space.hbm Cert.KernelIdeal.S16384x128 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

/-- The tile's thread. -/
abbrev thr (d : Dev nD) (L : grid0.Coords) : Thread nD τ := V d (cV L) (jV L)

/-- The tile's three semaphores: the list copy's, the gather's, the copy-out's. -/
abbrev cellA (d : Dev nD) (L : grid0.Coords) : GSem nD τ sig := (thr d L, .dma cc0_scoped0.sem)
abbrev cellG (d : Dev nD) (L : grid0.Coords) : GSem nD τ sig := (thr d L, .dma cc0_scratch2.sem)
abbrev cellB (d : Dev nD) (L : grid0.Coords) : GSem nD τ sig := (thr d L, .dma cc0_scoped1.sem)

omit [FloatOps F] in
theorem ownSems0_V :
    (ownSems0 (thr d L) : sProp 𝕄)
      = iprop(semVal (cellA d L) 0 ∗ semVal (cellG d L) 0 ∗ semVal (cellB d L) 0
          ∗ bigSep ((((ownCells (thr d L)).erase (cellA d L)).erase (cellG d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellG]; decide, (mem_ownCells (g := cellG d L)).mpr ⟨rfl, by
      show (SemLoc.dma cc0_scratch2.sem : SemLoc sig).isScoped .scVector = true; decide⟩⟩),
    SparseCore.bigSep_erase' (Finset.mem_erase.mpr ⟨by simp [cellG, cellB]; decide, Finset.mem_erase.mpr ⟨by simp [cellA, cellB]; decide,
      (mem_ownCells (g := cellB d L)).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile's rows of the result as the kernel's memref for them. -/
abbrev oSl (L : grid0.Coords) : Memref sig .scVector .hbm S512x128 .f32 := (oW).slice (oRect L) (fun _ => rfl)
/-- The tile's words of the list as the kernel's memref for them. -/
abbrev iRect (L : grid0.Coords) : Rect S16384 := Rect.unit (s := S16384) (k0_off1 L) S512.size (k0_off1_inb L)
abbrev iSl (L : grid0.Coords) : Memref sig .scVector .hbm S512 .i32 := (iW).slice (iRect L) (fun _ => rfl)

omit [FloatOps F] in
theorem set_oSl : (oSl L).view.set = oPart (tileNo (cL L) (jL L)) := by
  show ((View.whole (main_v0_scv : Ref sig .scVector)).slice (oRect L)).set = _
  rw [View.set_slice, oRect_eq]; exact Finset.map_refl

omit [FloatOps F] in
theorem pts_oSl (f : Buf (Elt F) (oLoc d)) :
    ((oSl L).view.loc (thr d L) ↦[(oSl L).view.set]{fullShare} f : sProp 𝕄) = oLoc d ↦[oPart (tileNo (cL L) (jL L))]{fullShare} f := by
  rw [set_oSl]
omit [FloatOps F] in
theorem pts_i (q : PosShare TreeShare) (f : Buf (Elt F) (iLoc d)) :
    ((iW).view.loc (thr d L) ↦{q} f : sProp 𝕄) = iLoc d ↦{q} f := by
  simp only [Memref.view_whole, View.set_whole]
omit [FloatOps F] in
theorem pts_t (q : PosShare TreeShare) (f : Buf (Elt F) (tLoc d)) :
    ((tW).view.loc (thr d L) ↦{q} f : sProp 𝕄) = tLoc d ↦{q} f := by
  simp only [Memref.view_whole, View.set_whole]
omit [FloatOps F] in
theorem pts_s0 (f : Buf (Elt F) ((thr d L).loc cc0_scratch0)) :
    ((s0W).view.loc (thr d L) ↦{fullShare} f : sProp 𝕄) = (thr d L).loc cc0_scratch0 ↦{fullShare} f := rfl
omit [FloatOps F] in
theorem pts_s1 (f : Buf (Elt F) ((thr d L).loc cc0_scratch1)) :
    ((s1W).view.loc (thr d L) ↦{fullShare} f : sProp 𝕄) = (thr d L).loc cc0_scratch1 ↦{fullShare} f := rfl

/-- After the list copy the first scratch holds the tile's words of the launch list, whatever it held before: each
    is below the number of table rows. -/
theorem list_words_lt (hpre : PreOK m) (g : Buf (Elt F) ((thr d L).loc cc0_scratch0)) (pay : S512.Idx → Elt F .i32)
    (hpay : pay = (iSl L).view.read (Elt F) (m (iLoc d))) :
    ∀ x : cc0_scratch0.ty.shape.Idx, ((s0W).view.read (Elt F) ((s0W).view.write (Elt F) g pay Finset.univ) x).toNat < 100000 := by
  intro x
  rw [View.read_write_univ, hpay, View.read_apply, cast_eq]
  exact hpre d _

/-- The table as the kernel slices it for the gather: all of it. -/
abbrev tSl : Memref sig .scVector .hbm S100000x128 .f32 :=
  (tW).slice (Rect.unit (s := S100000x128) ![0, 0] S100000x128.size inb_S100000x128_S100000x128_0_0) (fun _ => rfl)

omit [FloatOps F] in
/-- Read through that slice, the table is the table. -/
theorem tSl_read (x : S100000x128.Idx) : (tSl).view.read (Elt F) (m (tLoc d)) x = m (tLoc d) x := by
  rw [View.read_apply, cast_eq]
  refine congrArg (m (tLoc d)) (funext fun a => Fin.ext ?_)
  match a with
  | ⟨0, _⟩ => show 0 + 1 * (x 0).val = (x 0).val; omega
  | ⟨1, _⟩ => show 0 + 1 * (x 1).val = (x 1).val; omega

omit [FloatOps F] in
/-- One gathered entry: for a list that is the tile's words of the launch list, entry (a, c) of the gather is entry c
    of the table row that word a of the tile names. -/
theorem row_value (hpre : PreOK m) (lst : S512.Idx → Elt F .i32) (hl : lst = (iSl L).view.read (Elt F) (m (iLoc d)))
    (hn : S512.numel = S512x128.size gathers_S100000x128_S512x128.axis')
    (h : ∀ x, (lst x).toNat < S100000x128.size gathers_S100000x128_S512x128.axis) (a : Fin 512) (c : Fin 128) :
    SparseCore.gatherPayload gathers_S100000x128_S512x128 ((tSl).view.read (Elt F) (m (tLoc d))) (SparseCore.rows lst hn h) (ix2 a c)
      = m (tLoc d) (ix2 (rowOf (m (iLoc d) ((iSl L).view.emb (ix1 a)))) c) := by
  subst hl
  refine (Cert.Lib.GatherRows.gatherRows_apply (N := 100000) (C := 128) (R := 512) gathers_S100000x128_S512x128 _ _ hn h a c).trans ?_
  rw [tSl_read]
  refine congrArg (m (tLoc d)) (congrArg (fun r => ix2 r c) (Fin.ext ?_))
  show ((iSl L).view.read (Elt F) (m (iLoc d)) (ix1 a)).toNat = (rowOf (m (iLoc d) ((iSl L).view.emb (ix1 a)))).val
  rw [View.read_apply, cast_eq, Spec.rowOf_val (hpre d _)]

omit [FloatOps F] in
/-- The same with the list spelt as the first scratch read back after the list copy wrote it whole. -/
theorem gathered_value (hpre : PreOK m) (f0 : Buf (Elt F) ((thr d L).loc cc0_scratch0)) (pay : S512.Idx → Elt F .i32)
    (hpay : pay = (iSl L).view.read (Elt F) (m (iLoc d)))
    (hn : S512.numel = S512x128.size gathers_S100000x128_S512x128.axis')
    (h : ∀ x, ((s0W).view.read (Elt F) ((s0W).view.write (Elt F) f0 pay Finset.univ) x).toNat < S100000x128.size gathers_S100000x128_S512x128.axis)
    (a : Fin 512) (c : Fin 128) :
    SparseCore.gatherPayload gathers_S100000x128_S512x128 ((tSl).view.read (Elt F) (m (tLoc d)))
        (SparseCore.rows ((s0W).view.read (Elt F) ((s0W).view.write (Elt F) f0 pay Finset.univ)) hn h) (ix2 a c)
      = m (tLoc d) (ix2 (rowOf (m (iLoc d) ((iSl L).view.emb (ix1 a)))) c) :=
  row_value m d L hpre _ (by rw [View.read_write_univ, hpay]) hn h a c

omit [FloatOps F] in
/-- The tile's rows of the result, written whole with rows that are the lookup's, hold the lookup on those rows:
    row a of the tile is row 8192 * core + 512 * tile + a of the result, and word a of the tile is the word at that
    position of the list. -/
theorem out_part_value (w : S512x128.Idx → Elt F .f32)
    (hw : ∀ (a : Fin 512) (c : Fin 128), w (ix2 a c) = m (tLoc d) (ix2 (rowOf (m (iLoc d) ((iSl L).view.emb (ix1 a)))) c)) :
    ∀ i ∈ (oSl L).view.set, (oSl L).view.writes (Elt F) (m (oLoc d)) [⟨Rect.whole S512x128, w⟩] i = G m d i := by
  intro i hi
  obtain ⟨y, -, rfl⟩ := Finset.mem_map.mp hi
  obtain ⟨a, c, rfl⟩ : ∃ (a : Fin 512) (c : Fin 128), y = ix2 a c := ⟨y 0, y 1, eq_ix2 y⟩
  rw [Cert.Proof.LibMemrefEq.writes_whole_apply, View.write_emb_of_mem _ _ (Finset.mem_univ _), cast_eq, hw]
  show _ = m (tLoc d) (ix2 (rowOf (m (iLoc d) (ix1 (((oSl L).view.emb (ix2 a c)) 0)))) (((oSl L).view.emb (ix2 a c)) 1))
  have e0 : (iSl L).view.emb (ix1 a) = ix1 (((oSl L).view.emb (ix2 a c)) 0) := by
    funext b
    match b with
    | ⟨0, _⟩ =>
      refine Fin.ext ?_
      show k0_off1 L 0 + 1 * a.val = k0_off2 L 0 + 1 * a.val
      rw [k0_off1_eq, k0_off2_eq]; rfl
  have e1 : c = ((oSl L).view.emb (ix2 a c)) 1 := by
    refine Fin.ext ?_
    show c.val = k0_off2 L 1 + 1 * c.val
    rw [k0_off2_eq]
    show c.val = 0 + 1 * c.val
    omega
  rw [e0, ← e1]
  rfl

omit [FloatOps F] in
/-- What the copy out moves: the second scratch read back after the gather wrote it whole, which is what the gather
    wrote. -/
theorem scratch_readback (f1 : Buf (Elt F) ((thr d L).loc cc0_scratch1)) (g : S512x128.Idx → Elt F .f32) (v : Elt F .f32)
    (a : Fin 512) (c : Fin 128) (hg : g (ix2 a c) = v) :
    (s1W).view.read (Elt F) ((s1W).view.writes (Elt F) f1 [⟨Rect.whole S512x128, g⟩]) (ix2 a c) = v := by
  have e : (s1W).view.writes (Elt F) f1 [⟨Rect.whole S512x128, g⟩] = (s1W).view.write (Elt F) f1 g Finset.univ :=
    funext fun i => Cert.Proof.LibMemrefEq.writes_whole_apply (m := s1W) f1 g i
  rw [e, View.read_write_univ]
  exact hg

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goP m d (cL L) (jL L)
        ∗ scopedBufs (thr d L) ∗ scopedSems0 (thr d L) ∗ owes (thr d L) O W)
      ⊢ wp frame (wpE (defs₀ (F := F)) 𝒱₀ (thr d L) none) Set.univ
          (cc0_gather_kernel L tW (Memref.isWhole_whole _) iW (Memref.isWhole_whole _) oW (Memref.isWhole_whole _)
            s0W (Memref.isWhole_whole _) s1W (Memref.isWhole_whole _) cc0_scratch2 cc0_scoped0 cc0_scoped1)
          fun _ => iprop(tdP m d (cL L) (jL L) ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  unfold goP
  iintro ⟨#Hlv, -, ⟨Hi, Ht, Ho⟩, ⟨⟨%f0, Hs0⟩, ⟨%f1, Hs1⟩, Hbufs⟩, ⟨HsemA, HsemG, HsemB, Hsems⟩, HO⟩
  ihave Hmw := ((K (F := F)).mayWaits_none (thr := thr d L) hO) $$ Hlv
  ihave Hi' := (Entails.of_eq (pts_i (F := F) d L _ _).symm) $$ Hi
  ihave Ht' := (Entails.of_eq (pts_t (F := F) d L _ _).symm) $$ Ht
  ihave Ho' := (Entails.of_eq (pts_oSl (F := F) d L _).symm) $$ Ho
  ihave Hs0' := (Entails.of_eq (pts_s0 (F := F) d L _).symm) $$ Hs0
  ihave Hs1' := (Entails.of_eq (pts_s1 (F := F) d L _).symm) $$ Hs1
  -- the list copy and its wait
  sl_exec
  -- every word of the scratch list names a table row, whatever the scratch held before
  have hin := fun g => list_words_lt m d L hpre g (tile_body.sl.dma0 m d L) rfl
  -- the gather and its wait, the copy out and its wait
  sl_exec
  -- what the gather wrote, and so what the copy out moved, is the lookup's rows
  have hg : ∀ (a : Fin 512) (c : Fin 128), tile_body.sl.gather0 m d L f0 hin (ix2 a c)
      = m (tLoc d) (ix2 (rowOf (m (iLoc d) ((iSl L).view.emb (ix1 a)))) c) := by
    intro a c
    unfold tile_body.sl.gather0
    exact gathered_value m d L hpre f0 (tile_body.sl.dma0 m d L) rfl rfl (fun x => hin f0 x) a c
  have hw : ∀ (a : Fin 512) (c : Fin 128), tile_body.sl.dma0_1 m d L f0 f1 hin (ix2 a c)
      = m (tLoc d) (ix2 (rowOf (m (iLoc d) ((iSl L).view.emb (ix1 a)))) c) := by
    intro a c
    unfold tile_body.sl.dma0_1
    exact scratch_readback d L f1 (tile_body.sl.gather0 m d L f0 hin)
      (m (tLoc d) (ix2 (rowOf (m (iLoc d) ((iSl L).view.emb (ix1 a)))) c)) a c (hg a c)
  sl_step
  unfold tdP
  isplitl [Hi' Ht' Ho']
  · isplitl [Hi']; · iapply (Entails.of_eq (pts_i (F := F) d L _ _)); iexact Hi'
    isplitl [Ht']; · iapply (Entails.of_eq (pts_t (F := F) d L _ _)); iexact Ht'
    iapply (Entails.of_eq ((pointsTo_congr (out_part_value m d L _ hw)).trans (pts_oSl (F := F) d L _)))
    iexact Ho'
  isplitl [Hs0' Hs1' Hbufs]
  · isplitl [Hs0']; · iexists _; iexact Hs0'
    isplitl [Hs1']; · iexists _; iexact Hs1'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W)))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Tile

end Cert.Proof.KI

end
-- ==== Proof.KILaunch.lean ====
/-
  The launch: from one tile's task to the whole program's run.

  The TensorCore holds the list, the table and the result whole. It starts the two SparseCores, each sequencer hands
  its sixteen tiles their tasks, every tile runs its task, and the results come back the same way. The list and the
  table, read by every tile, go out as thirty-two equal shares of the whole array each; the result goes out cut in
  32 along its rows, part 16 * core + tile to that tile. Coming back, the thirty-two shares of the list and of the
  table are the arrays whole again at their launch contents, and the 32 parts of the result, each holding the lookup
  on its rows, are the result holding the lookup. So the program ends with the list and the table unchanged and the
  result equal to the lookup of the launch list in the launch table.
-/
import proofs.«212472_g42047729828085_cont_8to1_b_194_8_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Lib.ScSplit (sh)
open Cert.Proof.Spec (lookup rowOf)

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.KernelIdeal.main_arg1_scv : Memref Cert.KernelIdeal.sig Kind.scVector Space.hbm Cert.KernelIdeal.S100000x128 EltTy.f32)
local notation "iW" => (Memref.whole Cert.KernelIdeal.main_arg0_scv : Memref Cert.KernelIdeal.sig Kind.scVector Space.hbm Cert.KernelIdeal.S16384 EltTy.i32)
local notation "oW" => (Memref.whole Cert.KernelIdeal.main_v0_scv : Memref Cert.KernelIdeal.sig Kind.scVector Space.hbm Cert.KernelIdeal.S16384x128 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S512x128 EltTy.f32)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tW (Memref.isWhole_whole _) iW (Memref.isWhole_whole _) oW (Memref.isWhole_whole _)
          s0W (Memref.isWhole_whole _) s1W (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's share is its sixteen tiles' tasks side by side, and their results side by side are what it hands back. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ bigSep Finset.univ fun s : Fin 16 => tdP m d (Fin.cast nCore_zero c) s))
  rw [bigSep_tasks (F := F) (fun i => goP m d (Fin.cast nCore_zero c) i), bigSep_tasks (F := F) (fun i => tdP m d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The three arrays among the thirty-two tiles -/

omit [FloatOps F] in
/-- The result whole is its 32 parts, numbered by core and tile. -/
theorem oPts_parts (d : Dev nD) (f : Buf (Elt F) (oLoc d)) :
    (oLoc d ↦{fullShare} f : sProp 𝕄)
      = bigSep Finset.univ fun c : Fin 2 => bigSep Finset.univ fun s : Fin 16 => oLoc d ↦[oPart (tileNo c s)]{fullShare} f := by
  rw [Cert.Lib.ScSplit.pointsTo_cut (fun p : Fin 2 × Fin 16 => oPart (tileNo p.1 p.2))
    (Cert.Lib.ScSplit.parts_disjoint hdiv (fun p : Fin 2 × Fin 16 => tileNo p.1 p.2) tileNo_injective)
    (Cert.Lib.ScSplit.parts_cover hdiv (fun p : Fin 2 × Fin 16 => tileNo p.1 p.2) tileNo_surjective) fullShare f]
  exact bigSep_univ_prod (fun p : Fin 2 × Fin 16 => (oLoc d ↦[oPart (tileNo p.1 p.2)]{fullShare} f : sProp 𝕄))

omit [FloatOps F] in
/-- The list and the table whole at their launch contents and the result whole at f are, side by side over the
    thirty-two tiles, a share of the list, a share of the table and the tile's part of the result at f. -/
theorem deal (d : Dev nD) (f : Buf (Elt F) (oLoc d)) :
    (iprop((iLoc d ↦{fullShare} m (iLoc d)) ∗ (tLoc d ↦{fullShare} m (tLoc d)) ∗ oLoc d ↦{fullShare} f) : sProp 𝕄)
      = bigSep Finset.univ fun c : Fin 2 => bigSep Finset.univ fun s : Fin 16 =>
          iprop(iSh m d c.val s.val ∗ tSh m d c.val s.val ∗ oPt d (tileNo c s) f) := by
  rw [Cert.Lib.ScSplit.bigSep2_sep (fun (c : Fin 2) (s : Fin 16) => iSh m d c.val s.val)
      (fun (c : Fin 2) (s : Fin 16) => iprop(tSh m d c.val s.val ∗ oPt d (tileNo c s) f)),
    Cert.Lib.ScSplit.bigSep2_sep (fun (c : Fin 2) (s : Fin 16) => tSh m d c.val s.val) (fun (c : Fin 2) (s : Fin 16) => oPt d (tileNo c s) f),
    ← Cert.Lib.ScSplit.pointsTo_sh, ← Cert.Lib.ScSplit.pointsTo_sh, ← oPts_parts]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c)
      = bigSep Finset.univ fun c : Fin 2 => bigSep Finset.univ fun s : Fin 16 => goP m d c s := rfl
theorem dn0_eq (d : Dev nD) :
    (bigSep Finset.univ fun c : Fin ((K (F := F)).nCore 0) => (P m).dn 0 d c)
      = bigSep Finset.univ fun c : Fin 2 => bigSep Finset.univ fun s : Fin 16 => tdP m d c s := rfl

/-- What @main leaves: the list and the table at their launch contents, the result at the lookup. -/
abbrev FIN (d : Dev nD) : sProp 𝕄 :=
  iprop((iLoc d ↦{fullShare} m (iLoc d)) ∗ (tLoc d ↦{fullShare} m (tLoc d)) ∗ oLoc d ↦{fullShare} G m d)

/-- @main on device d's TensorCore: the one call, from the three arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ht, Ho⟩, -, -⟩, -⟩
  iapply ((K (F := F)).wp_run (D (F := F)) 𝒱 (EH := EH) (P := P m) κ d 0) $$ [Hst Hi Ht Ho]
  isplitr; · iexact Hctx
  isplitl [Hst]; · iexact Hst
  isplitl [Hi Ht Ho]
  · rw [st0_eq]
    unfold goP
    rw [← deal]
    isplitl [Hi]; · iexact Hi
    isplitl [Ht]; · iexact Ht
    iexact Ho
  iintro ⟨Hst, Hdn⟩
  ihave Hdn' := (Entails.of_eq ((dn0_eq m d).trans ((by unfold tdP; rfl : _ = _).trans (deal m d (G m d)).symm))) $$ Hdn
  icases Hdn' with ⟨Hi, Ht, Ho⟩
  imodintro
  isplitl [Hst]; · iexact Hst
  isplitl [Hi]; · iexact Hi
  isplitl [Ht]; · iexact Ht
  iexact Ho

def fq (d : Dev nD) (s' : Phys nD τ sig (Elt F)) : Prop :=
  s'.mem.mem (oLoc d) = G m d ∧ s'.mem.mem (iLoc d) = m (iLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The result at the lookup; the list and the table unchanged. -/
def QC : PUnit × MemSt nD τ sig (Elt F) → Prop :=
  fun r => ∀ c : Dev nD, r.2.mem (oLoc c) = G m c ∧ r.2.mem (iLoc c) = m (iLoc c) ∧ r.2.mem (tLoc c) = m (tLoc c)

/-- Every weakly fair execution of the device's threads terminates, nothing faulting, in a state where the result is
    the lookup of the launch list in the launch table and the list and the table are unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.Words.lean ====
/-
  A 32-bit word between 0 and 99999.

  Read as a signed number, a word is its natural value when that is below 2 ^ 31 and that minus 2 ^ 32 otherwise.
  So a word is at least 0 and at most 99999 as a signed number exactly when its natural value is below 100000, and
  then both readings are the same number.
-/
import Idealize.ShloMosaic.Lib.Affine

namespace Cert.Proof.Words

open Idealize.ShloMosaic

/-- A word below 100000 reads the same signed. -/
theorem toInt_of_lt {v : BitVec 32} (h : v.toNat < 100000) : v.toInt = (v.toNat : Int) := by
  rw [BitVec.toInt_eq_toNat_cond]
  split <;> omega

theorem toInt_zero : (0#32 : BitVec 32).toInt = 0 := by decide
theorem toInt_top : (99999#32 : BitVec 32).toInt = 99999 := by decide

/-- A word that passes both signed tests is below 100000. -/
theorem lt_of_tests {v : BitVec 32} (e : IntOp.andi (IntOp.cmpi .sge v 0#32) (IntOp.cmpi .sle v 99999#32) = 1#1) :
    v.toNat < 100000 := by
  obtain ⟨h0, h1⟩ := IntOp.andi_eq_one.1 e
  have h0' := IntOp.cmpi_sge.1 h0
  have h1' := IntOp.cmpi_sle.1 h1
  rw [toInt_zero] at h0'
  rw [toInt_top] at h1'
  rw [BitVec.toInt_eq_toNat_cond] at h0' h1'
  have := v.isLt
  split at h0' <;> omega

/-- A word below 100000 passes both signed tests: it is at least 0 and at most 99999 as a signed number. -/
theorem tests_of_lt {v : BitVec 32} (h : v.toNat < 100000) :
    IntOp.andi (IntOp.cmpi .sge v 0#32) (IntOp.cmpi .sle v 99999#32) = 1#1 := by
  refine IntOp.andi_eq_one.2 ⟨IntOp.cmpi_sge.2 ?_, IntOp.cmpi_sle.2 ?_⟩
  · rw [toInt_zero, toInt_of_lt h]; omega
  · rw [toInt_top, toInt_of_lt h]; omega

/-- A word below 100000 is not negative as a signed number. -/
theorem not_neg_of_lt {v : BitVec 32} (h : v.toNat < 100000) : IntOp.cmpi .slt v 0#32 ≠ 1#1 := by
  intro e
  have := IntOp.cmpi_slt.1 e
  rw [toInt_zero, toInt_of_lt h] at this
  omega

/-- The signed reading of a word below 100000, taken as a natural number, is the word's value. -/
theorem toInt_toNat_of_lt {v : BitVec 32} (h : v.toNat < 100000) : v.toInt.toNat = v.toNat := by
  rw [toInt_of_lt h]; rfl

end Cert.Proof.Words
-- ==== Proof.LibGather1.lean ====
/-
  A gather of table rows at a column of row numbers, read at an index.  The table has N rows of C entries; the array of
  start indices has shape [R, 1], one row number per r; the result has shape [R, C].  With offset axis 1, collapsed
  operand axis 0, start index map [0], index vector axis 1 and slice sizes [1, C] (what taking rows of a two-dimensional
  table along axis 0 at a vector of indices lowers to), entry (r, c) of the result is the table's entry c of the row whose
  number is the start index at (r, 0), read as a signed integer and clamped into [0, N - 1].
-/
import Idealize.ShloMosaic.Lib.ValueIdx

noncomputable section

namespace Cert.Lib.Gather1

open Idealize.ShloMosaic Idealize.ShloMosaic.ValueIdx

variable {α : Type}

/-- Those dimension numbers for a table [N, C], start indices [R, 1] and a result [R, C]; their conditions are
    decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at (r, c): the table at the row the start index at (r, 0) names, read signed and clamped into
    [0, N - 1], entry c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
        + (rowDims N C R wf).offCoord (ix2 r c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
        + (rowDims N C R wf).offCoord (ix2 r c) 1 = c.val
    have hs : (rowDims N C R wf).start (ix2 r c) idx 1 = 0 := by
      unfold GatherDims.start
      rw [dif_neg (show (1 : Fin 2) ∉ ([0] : List (Fin 2)) by decide)]
    rw [hs, GatherDims.batchCoord_eq_zero _ _ _ List.not_mem_nil]
    have hk : (1 : Fin 2) ∈ (rowDims N C R wf).sKept :=
      (GatherDims.mem_sKept _ _).mpr ⟨show (1 : Fin 2) ∉ ([0] : List (Fin 2)) by decide, List.not_mem_nil⟩
    have hsk : (rowDims N C R wf).sKept = [(1 : Fin 2)] := rfl
    have key : ∀ (p : Nat) (hp : p < ([1] : List (Fin 2)).length), p = 0 →
        (ix2 r c (([1] : List (Fin 2))[p]'hp)).val = c.val := by
      intro p hp h0; subst h0; rfl
    unfold GatherDims.offCoord
    rw [dif_pos hk]
    simp only [Nat.zero_add]
    exact key _ _ (by rw [hsk]; rfl)

end Cert.Lib.Gather1

end
-- ==== Proof.LibReduceAndi.lean ====
/-
  An `and`-reduction of all-ones is one.

  A one-operand `stablehlo.reduce` by `and` over `i1` words is, at each result index, a left fold by `and` from the
  initial value over the operand's words that reduce into that index. A fold by `and` that starts at 1 and meets only
  1s stays at 1; so where the initial value is 1 and every operand word is 1, the result is 1 at every index.
  (The converse direction — a result of 1 had only 1s — is the library's `Host.reduce_andi_eq_one`.)
-/
import Idealize.ShloMosaic.Lib.ReduceAll

namespace Cert.Proof.LibReduceAndi

open Idealize.ShloMosaic

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- A reduce by `and` from the initial value 1 of an operand that is 1 everywhere is 1 at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ q, init q = 1#1) :
    Host.reduce IntOp.andi x init h hu j = 1#1 := by
  rw [Host.reduce_eq_foldl, hi]
  exact foldl_andi_one x _ (fun n _ => hx n)

end Cert.Proof.LibReduceAndi
-- ==== Proof.RefValue.lean ====
/-
  The reference: its run, and what it computes.

  The reference takes rows of the table at the list's words. It first moves a negative word up by 100000 (counting
  rows from the end); then, per word, tests that the moved word is at least 0 and at most 99999; gathers the table's
  rows at the moved words, a row number outside the table clamped into it; and keeps the gathered row where the test
  passed, a row of NaNs where it failed.

  For a list whose words are all below 100000 no word is negative, so none is moved; every test passes, so no row of
  NaNs is kept; no row number is clamped. The result is the lookup: row r is the table row named by word r.
-/
import proofs.«212472_g42047729828085_cont_8to1_b_194_8_alg».proof.ReferenceIdeal
import proofs.«212472_g42047729828085_cont_8to1_b_194_8_alg».proof.Proof.Gen.ReferenceIdeal
import proofs.«212472_g42047729828085_cont_8to1_b_194_8_alg».proof.Proof.Spec
import proofs.«212472_g42047729828085_cont_8to1_b_194_8_alg».proof.Proof.Words
import proofs.«212472_g42047729828085_cont_8to1_b_194_8_alg».proof.Proof.LibGather1
import proofs.«212472_g42047729828085_cont_8to1_b_194_8_alg».proof.Proof.LibReduceAndi
import Idealize.ShloMosaic.Lib.StableHlo.Run
import Idealize.ShloMosaic.Lib.Pipeline.Value
import Idealize.ShloMosaic.Lib.ValueIdx

noncomputable section

namespace Cert.Proof.Ref

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## What the reference computes, as one term -/

/-- The list with each negative word moved up by the number of rows, -/
def wrapped (lst : IVec S16384 32) : IVec S16384 32 :=
  select (cmpi .slt lst (broadcastInDim S16384 ![] bcast_S_S16384 (constantI S_ 32 0#32)))
    (addi lst (broadcastInDim S16384 ![] bcast_S_S16384 (constantI S_ 32 100000#32))) lst

/-- written as a column. -/
def col (lst : IVec S16384 32) : IVec S16384x1 32 := broadcastInDim S16384x1 ![0] bcast_S16384_S16384x1_0 (wrapped lst)

/-- Per word, whether the moved word is a row number: at least 0 and at most 99999. -/
def inRange (lst : IVec S16384 32) : IVec S16384 1 :=
  Host.reduce IntOp.andi
    (andi (cmpi .sge (col lst) (broadcastInDim S16384x1 ![] bcast_S_S16384x1 (constantI S_ 32 0#32)))
      (cmpi .sle (col lst) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The gathered rows where the test passed, NaNs where it failed. -/
def refOut (lst : IVec S16384 32) (tab : FVec F S100000x128 .f32) : FVec F S16384x128 .f32 :=
  select (broadcastInDim S16384x128 ![0] bcast_S16384_S16384x128_0 (inRange lst))
    (Host.gather gather_S100000x128_S16384x1_S16384x128_1_0_n_n_0_1_1128 tab (col lst))
    (broadcastInDim S16384x128 ![] bcast_S_S16384x128 (constant S_ .f32 0x7FC00000#32))

/-! ## The run -/

/-- The reference's operations, in order: the lookup function's, with the select it calls written in its place. -/
abbrev ops : List (HloOp τ sig (Elt F)) :=
  [ nullary main_call0_c (constantI S_ 32 0#32),
    unary main_call0_c main_call0_v0 (broadcastInDim S16384 ![] bcast_S_S16384 : (⟨S_, .i32⟩ : BufTy).Contents (Elt F) → (⟨S16384, .i32⟩ : BufTy).Contents (Elt F)),
    binary main_arg0 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 100000#32),
    unary main_call0_c_0 main_call0_v2 (broadcastInDim S16384 ![] bcast_S_S16384 : (⟨S_, .i32⟩ : BufTy).Contents (Elt F) → (⟨S16384, .i32⟩ : BufTy).Contents (Elt F)),
    binary main_arg0 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_arg0 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 99999#32),
    nullary main_call0_c_2 (constantI S_ 32 0#32),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1),
    binary main_call0_v11 main_call0_c_3 main_call0_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_arg1 main_call0_v5 main_call0_v13 (fun x i => Host.gather gather_S100000x128_S16384x1_S16384x128_1_0_n_n_0_1_1128 x i : (⟨S100000x128, .f32⟩ : BufTy).Contents (Elt F) → (⟨S16384x1, .i32⟩ : BufTy).Contents (Elt F) → (⟨S16384x128, .f32⟩ : BufTy).Contents (Elt F)),
    unary main_call0_v12 main_call0_v14 (broadcastInDim S16384x128 ![0] bcast_S16384_S16384x128_0 : (⟨S16384, .i1⟩ : BufTy).Contents (Elt F) → (⟨S16384x128, .i1⟩ : BufTy).Contents (Elt F)),
    nullary main_call0_cst (constant S_ .f32 0x7FC00000#32),
    unary main_call0_cst main_call0_v15 (broadcastInDim S16384x128 ![] bcast_S_S16384x128 : (⟨S_, .f32⟩ : BufTy).Contents (Elt F) → (⟨S16384x128, .f32⟩ : BufTy).Contents (Elt F)),
    ternary main_call0_v14 main_call0_v13 main_call0_v15 main_v0 (select : (⟨S16384x128, .i1⟩ : BufTy).Contents (Elt F) → (⟨S16384x128, .f32⟩ : BufTy).Contents (Elt F) → (⟨S16384x128, .f32⟩ : BufTy).Contents (Elt F) → (⟨S16384x128, .f32⟩ : BufTy).Contents (Elt F)) ]

set_option maxRecDepth 65536 in
/-- @main is that straight line: the two functions unfolded at their calls. -/
theorem main_eq (c : Dev nD) : main (F := F) c = seq ops := by
  simp only [main, fn_take.body, fn_where.body, seq, bind_assoc, pure_bind]
  rfl

set_option maxHeartbeats 2000000 in
/-- The result buffer after the operations holds that term of the two arguments. -/
theorem out_eq (V : Valuation τ sig (Elt F)) :
    after ops V (main_v0 : DevRef τ sig) = refOut (V (main_arg0 : DevRef τ sig)) (V (main_arg1 : DevRef τ sig)) := by
  after_results
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of the reference terminates, its result at that term of the launch arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

/-! ## The term is the lookup -/

/-- A word below 100000 is not moved. -/
theorem wrapped_apply (lst : IVec S16384 32) (j : S16384.Idx) (h : (lst j).toNat < 100000) : wrapped lst j = lst j := by
  unfold wrapped
  rw [select_apply]
  unfold Scalar.select
  exact if_neg (Words.not_neg_of_lt h)

/-- Row r of the column is word r. -/
theorem col_apply (lst : IVec S16384 32) (r : Fin 16384) : col lst (ix2 r (0 : Fin 1)) = wrapped lst (ix1 r) := by
  unfold col
  exact broadcastInDim_apply _ _ _ _ (ix1 r) (fun a => match a with | ⟨0, _⟩ => rfl)

/-- Every test passes. -/
theorem inRange_apply (lst : IVec S16384 32) (h : ∀ j, (lst j).toNat < 100000) (j : S16384.Idx) : inRange lst j = 1#1 := by
  unfold inRange
  refine Cert.Proof.LibReduceAndi.reduce_andi_one _ _ _ _ j (fun i => ?_) (fun _ => rfl)
  obtain ⟨r, z, rfl⟩ : ∃ (r : Fin 16384) (z : Fin 1), i = ix2 r z := ⟨i 0, i 1, eq_ix2 i⟩
  obtain rfl : z = 0 := Subsingleton.elim _ _
  show IntOp.andi (IntOp.cmpi .sge (col lst (ix2 r 0)) 0#32) (IntOp.cmpi .sle (col lst (ix2 r 0)) 99999#32) = 1#1
  rw [col_apply, wrapped_apply lst _ (h _)]
  exact Words.tests_of_lt (h _)

/-- For a list of words below 100000 the reference's term is the lookup. -/
theorem refOut_eq (lst : IVec S16384 32) (tab : FVec F S100000x128 .f32) (h : ∀ j, (lst j).toNat < 100000) :
    refOut lst tab = Spec.lookup lst tab := by
  funext i
  obtain ⟨r, c, rfl⟩ : ∃ (r : Fin 16384) (c : Fin 128), i = ix2 r c := ⟨i 0, i 1, eq_ix2 i⟩
  have hm : broadcastInDim S16384x128 ![0] bcast_S16384_S16384x128_0 (inRange lst) (ix2 r c) = 1#1 := by
    unfold broadcastInDim; exact inRange_apply lst h _
  unfold refOut
  rw [select_apply, hm]
  unfold Scalar.select
  rw [if_pos (show (1#1 : BitVec 1) = 1 from rfl), Spec.lookup_apply]
  refine (Cert.Lib.Gather1.gather_rows_apply (N := 100000) (C := 128) (R := 16384) (by omega) gather_S100000x128_S16384x1_S16384x128_1_0_n_n_0_1_1128_wf tab (col lst) r c).trans ?_
  refine congrArg tab (congrArg (fun a => ix2 a c) (Fin.ext ?_))
  show min (col lst (ix2 r 0)).toInt.toNat (100000 - 1) = min (lst (ix1 r)).toNat 99999
  rw [col_apply, wrapped_apply lst _ (h _), Words.toInt_toNat_of_lt (h _)]

end Cert.Proof.Ref

end
-- ==== Proof.PreRange.lean ====
/-
  The precondition bounds the list.

  The precondition is the conjunction of two tests reduced by 'and' over their arrays: every table entry finite,
  and every word of the list at least 0 and at most 99999 as a signed number. From the second, every word of the
  list is below 100000 as a natural number. The float instance plays no part in it.
-/
import proofs.«212472_g42047729828085_cont_8to1_b_194_8_alg».proof.Pre_input_domain
import proofs.«212472_g42047729828085_cont_8to1_b_194_8_alg».proof.Proof.Gen.Pre_input_domain
import proofs.«212472_g42047729828085_cont_8to1_b_194_8_alg».proof.Proof.Words
import Idealize.ShloMosaic.Lib.ReduceAll
import Idealize.ShloMosaic.Lib.ValueIdx

namespace Cert.Proof.PreRange

open Idealize.ShloMosaic Idealize.ShloMosaic.ValueIdx
open Cert.Pre_input_domain Cert.Pre_input_domain.Gen

instance : Subsingleton S_.Idx := ⟨fun _ _ => funext fun d => d.elim0⟩

/-- Where the precondition holds, every word of the list is below the number of table rows. -/
theorem list_lt {F : FTy → Type} [FloatOps F] (lst : IVec S16384 32) (tab : FVec F S100000x128 .f32)
    (h : Cert.Pre_input_domain.fn (F := F) lst tab = fun _ => 1#1) (r : S16384.Idx) : (lst r).toNat < 100000 := by
  have e := congrFun h ix0
  dsimp only [Cert.Pre_input_domain.fn] at e
  have e9 := (IntOp.andi_eq_one.1 e).2
  exact Words.lt_of_tests (Host.reduce_andi_all _ _ _ _ _ e9 r)

end Cert.Proof.PreRange
-- ==== Proof.lean ====
/-
  An embedding lookup on the SparseCore against taking rows of the table at the list's words.

  The kernel: thirty-two vector subcores each copy 512 consecutive words of the list into their own memory, gather
  the table rows those words name, and copy the rows to the same 512 rows of the result. The reference: rows of the
  table at the list's words, a negative word counted from the end, a word outside the table answered by NaNs.

  The precondition bounds every word of the list between 0 and 99999, the table's rows. Under it every word names a
  table row, which the kernel's gather needs of every word it is handed, and the reference neither moves a word nor
  answers NaNs nor clamps a row number. Both results are then the same function of the two arrays: row r is the
  table row named by word r (Spec.lean's lookup). No arithmetic is done on the table's entries, so the two results
  are equal entry by entry whatever the entries are, and the kernel's idealization is the kernel's own text.

  The three frames are the runs with the value dropped: the kernel's run (at both float instances, KBLaunch.lean and
  KILaunch.lean) ends with the list and the table unchanged and the result at the lookup; the reference's run
  (RefValue.lean) ends with its arguments unchanged and its result at a term that, for a bounded list, is the lookup.
-/
import proofs.«212472_g42047729828085_cont_8to1_b_194_8_alg».proof.Defs
import proofs.«212472_g42047729828085_cont_8to1_b_194_8_alg».proof.Proof.Gen.Kernel
import proofs.«212472_g42047729828085_cont_8to1_b_194_8_alg».proof.Proof.Gen.Kernel.Skeleton
import proofs.«212472_g42047729828085_cont_8to1_b_194_8_alg».proof.Proof.Gen.KernelIdeal
import proofs.«212472_g42047729828085_cont_8to1_b_194_8_alg».proof.Proof.Gen.KernelIdeal.Skeleton
import proofs.«212472_g42047729828085_cont_8to1_b_194_8_alg».proof.Proof.Gen.ReferenceIdeal
import proofs.«212472_g42047729828085_cont_8to1_b_194_8_alg».proof.Proof.Gen.Pre_input_domain
import proofs.«212472_g42047729828085_cont_8to1_b_194_8_alg».proof.Proof.KBLaunch
import proofs.«212472_g42047729828085_cont_8to1_b_194_8_alg».proof.Proof.KILaunch
import proofs.«212472_g42047729828085_cont_8to1_b_194_8_alg».proof.Proof.RefValue
import proofs.«212472_g42047729828085_cont_8to1_b_194_8_alg».proof.Proof.PreRange
import Idealize.ShloMosaic.Adequacy
import Idealize.ShloMosaic.Init

noncomputable section

namespace Cert.Proof

open Idealize.ShloMosaic Idealize.SL.Sem

/-- Where the precondition holds of the kernel's launch memory, every word of the list is below 100000. -/
theorem preOK_kernel (m : (ℓ : Loc Cert.Kernel.nD Cert.Kernel.τ Cert.Kernel.sig) → Buf (Elt Bits) ℓ) (h : Cert.Pre_Kernel m) :
    KB.PreOK (F := Bits) m := fun d r => PreRange.list_lt _ _ (h d) r

/-- The same of the idealized kernel's. -/
theorem preOK_ideal (m : (ℓ : Loc Cert.KernelIdeal.nD Cert.KernelIdeal.τ Cert.KernelIdeal.sig) → Buf (Elt Ideal) ℓ)
    (h : Cert.Pre_KernelIdeal m) : KI.PreOK (F := Ideal) m := fun d r => PreRange.list_lt _ _ (h d) r

theorem frame_k : Cert.frame_Kernel := fun m ρ hpre =>
  (θ_run Cert.Kernel.defs _ _).mono (fun _ h c => (h c).2) (KB.run_main (F := Bits) m ρ (preOK_kernel m hpre))

theorem frame_ki : Cert.frame_KernelIdeal := fun m ρ hpre =>
  (θ_run Cert.KernelIdeal.defs _ _).mono (fun _ h c => (h c).2) (KI.run_main (F := Ideal) m ρ (preOK_ideal m hpre))

theorem frame_ri : Cert.frame_ReferenceIdeal := fun m ρ _ =>
  (θ_run Cert.ReferenceIdeal.defs _ _).mono (fun _ h c => (h c).2) (Ref.run (F := Ideal) m ρ)

/-- The ideal pass rewrote nothing. -/
theorem preserves : Cert.preserves_Kernel_KernelIdeal := trivial

/-- Both results are the lookup of the launch list in the launch table. -/
theorem algebraic : Cert.algebraic_KernelIdeal_ReferenceIdeal := by
  intro m ρ m' ρ' hpre hagree
  refine ⟨fun c => KI.G m c, KI.run_main (F := Ideal) m ρ (preOK_ideal m hpre), ?_⟩
  refine (θ_run Cert.ReferenceIdeal.defs _ _).mono (fun _ h c => ⟨(h c).1.trans ?_, (h c).2⟩) (Ref.run (F := Ideal) m' ρ')
  rw [(hagree c).1, (hagree c).2]
  exact Ref.refOut_eq _ _ (fun j => preOK_ideal m hpre c j)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
